-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S2x1048576 : Shape := ⟨2, ![2, 1048576]⟩
abbrev S1048576 : Shape := ⟨1, ![1048576]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S65536x512 .f32) (main_arg1 : IVec S2x1048576 32) (main_arg2 : FVec F S1048576 .f32) (main_arg3 : FVec F S512x128 .f32) (main_arg4 : FVec F S128 .f32) (main_arg5 : FVec F S128x128 .f32) (main_arg6 : FVec F S128 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S65536x512 : Shape := ⟨2, ![65536, 512]⟩
abbrev S2x1048576 : Shape := ⟨2, ![2, 1048576]⟩
abbrev S1048576 : Shape := ⟨1, ![1048576]⟩
abbrev S512x128 : Shape := ⟨2, ![512, 128]⟩
abbrev S128 : Shape := ⟨1, ![128]⟩
abbrev S128x128 : Shape := ⟨2, ![128, 128]⟩
abbrev S1x1048576 : Shape := ⟨2, ![1, 1048576]⟩
abbrev S65536x128 : Shape := ⟨2, ![65536, 128]⟩
abbrev S4096x512 : Shape := ⟨2, ![4096, 512]⟩
abbrev S4096x128 : Shape := ⟨2, ![4096, 128]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S1114112x128 : Shape := ⟨2, ![1114112, 128]⟩
abbrev S1x128 : Shape := ⟨2, ![1, 128]⟩

abbrev nBuf : Space → Nat
  | .hbm => 130
  | .vmem => 10
  | .smem => 0
  | _ => 0

abbrev hbmTy0_0 (i : Nat) : BufTy := match i % 128 with
  | 0 => ⟨S65536x512, .f32⟩
  | 1 => ⟨S2x1048576, .i32⟩
  | 2 => ⟨S1048576, .f32⟩
  | 3 => ⟨S512x128, .f32⟩
  | 4 => ⟨S128, .f32⟩
  | 5 => ⟨S128x128, .f32⟩
  | 6 => ⟨S128, .f32⟩
  | 7 => ⟨S1x1048576, .i32⟩
  | 8 => ⟨S1048576, .i32⟩
  | 9 => ⟨S1x1048576, .i32⟩
  | 10 => ⟨S1048576, .i32⟩
  | 11 => ⟨S65536x128, .f32⟩
  | 12 => ⟨S65536, .i32⟩
  | 13 => ⟨S1114112, .i32⟩
  | 14 => ⟨S1114112, .i32⟩
  | 15 => ⟨S_, .f32⟩
  | 16 => ⟨S65536, .f32⟩
  | 17 => ⟨S1114112, .f32⟩
  | 18 => ⟨S_, .f32⟩
  | 19 => ⟨S65536, .f32⟩
  | 20 => ⟨S1114112x1, .i32⟩
  | 21 => ⟨S65536, .f32⟩
  | 22 => ⟨S_, .f32⟩
  | 23 => ⟨S65536, .f32⟩
  | 24 => ⟨S65536, .i1⟩
  | 25 => ⟨S65536, .f32⟩
  | 26 => ⟨S_, .f32⟩
  | 27 => ⟨S_, .f32⟩
  | 28 => ⟨S65536, .f32⟩
  | 29 => ⟨S65536, .f32⟩
  | 30 => ⟨S_, .i32⟩
  | 31 => ⟨S1114112, .i32⟩
  | 32 => ⟨S1114112, .i1⟩
  | 33 => ⟨S_, .i32⟩
  | 34 => ⟨S1114112, .i32⟩
  | 35 => ⟨S1114112, .i32⟩
  | 36 => ⟨S1114112, .i32⟩
  | 37 => ⟨S1114112x1, .i32⟩
  | 38 => ⟨S1114112, .f32⟩
  | 39 => ⟨S1114112, .f32⟩
  | 40 => ⟨S_, .i32⟩
  | 41 => ⟨S1114112, .i32⟩
  | 42 => ⟨S1114112, .i1⟩
  | 43 => ⟨S_, .i32⟩
  | 44 => ⟨S1114112, .i32⟩
  | 45 => ⟨S1114112, .i32⟩
  | 46 => ⟨S1114112, .i32⟩
  | 47 => ⟨S1114112x1, .i32⟩
  | 48 => ⟨S1114112, .f32⟩
  | 49 => ⟨S1114112, .f32⟩
  | 50 => ⟨S1114112x1, .f32⟩
  | 51 => ⟨S_, .i32⟩
  | 52 => ⟨S1114112, .i32⟩
  | 53 => ⟨S1114112, .i1⟩
  | 54 => ⟨S_, .i32⟩
  | 55 => ⟨S1114112, .i32⟩
  | 56 => ⟨S1114112, .i32⟩
  | 57 => ⟨S1114112, .i32⟩
  | 58 => ⟨S1114112x1, .i32⟩
  | 59 => ⟨S1114112x128, .f32⟩
  | 60 => ⟨S1114112x128, .f32⟩
  | 61 => ⟨S1114112x128, .f32⟩
  | 62 => ⟨S_, .f32⟩
  | 63 => ⟨S65536x128, .f32⟩
  | 64 => ⟨S1114112x1, .i32⟩
  | 65 => ⟨S65536x128, .f32⟩
  | 66 => ⟨S1x128, .f32⟩
  | 67 => ⟨S65536x128, .f32⟩
  | 68 => ⟨S65536x128, .f32⟩
  | 69 => ⟨S_, .f32⟩
  | 70 => ⟨S65536x128, .f32⟩
  | 71 => ⟨S65536x128, .f32⟩
  | 72 => ⟨S65536x128, .f32⟩
  | 73 => ⟨S65536, .i32⟩
  | 74 => ⟨S1114112, .i32⟩
  | 75 => ⟨S1114112, .i32⟩
  | 76 => ⟨S_, .f32⟩
  | 77 => ⟨S65536, .f32⟩
  | 78 => ⟨S1114112, .f32⟩
  | 79 => ⟨S_, .f32⟩
  | 80 => ⟨S65536, .f32⟩
  | 81 => ⟨S1114112x1, .i32⟩
  | 82 => ⟨S65536, .f32⟩
  | 83 => ⟨S_, .f32⟩
  | 84 => ⟨S65536, .f32⟩
  | 85 => ⟨S65536, .i1⟩
  | 86 => ⟨S65536, .f32⟩
  | 87 => ⟨S_, .f32⟩
  | 88 => ⟨S_, .f32⟩
  | 89 => ⟨S65536, .f32⟩
  | 90 => ⟨S65536, .f32⟩
  | 91 => ⟨S_, .i32⟩
  | 92 => ⟨S1114112, .i32⟩
  | 93 => ⟨S1114112, .i1⟩
  | 94 => ⟨S_, .i32⟩
  | 95 => ⟨S1114112, .i32⟩
  | 96 => ⟨S1114112, .i32⟩
  | 97 => ⟨S1114112, .i32⟩
  | 98 => ⟨S1114112x1, .i32⟩
  | 99 => ⟨S1114112, .f32⟩
  | 100 => ⟨S1114112, .f32⟩
  | 101 => ⟨S_, .i32⟩
  | 102 => ⟨S1114112, .i32⟩
  | 103 => ⟨S1114112, .i1⟩
  | 104 => ⟨S_, .i32⟩
  | 105 => ⟨S1114112, .i32⟩
  | 106 => ⟨S1114112, .i32⟩
  | 107 => ⟨S1114112, .i32⟩
  | 108 => ⟨S1114112x1, .i32⟩
  | 109 => ⟨S1114112, .f32⟩
  | 110 => ⟨S1114112, .f32⟩
  | 111 => ⟨S1114112x1, .f32⟩
  | 112 => ⟨S_, .i32⟩
  | 113 => ⟨S1114112, .i32⟩
  | 114 => ⟨S1114112, .i1⟩
  | 115 => ⟨S_, .i32⟩
  | 116 => ⟨S1114112, .i32⟩
  | 117 => ⟨S1114112, .i32⟩
  | 118 => ⟨S1114112, .i32⟩
  | 119 => ⟨S1114112x1, .i32⟩
  | 120 => ⟨S1114112x128, .f32⟩
  | 121 => ⟨S1114112x128, .f32⟩
  | 122 => ⟨S1114112x128, .f32⟩
  | 123 => ⟨S_, .f32⟩
  | 124 => ⟨S65536x128, .f32⟩
  | 125 => ⟨S1114112x1, .i32⟩
  | 126 => ⟨S65536x128, .f32⟩
  | 127 => ⟨S1x128, .f32⟩
  | _ => ⟨S65536x512, .f32⟩

abbrev hbmTy0_1 (i : Nat) : BufTy := match i % 128 with
  | 0 => ⟨S65536x128, .f32⟩
  | 1 => ⟨S65536x128, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | .local _ .vmem, ⟨0, _⟩ => ⟨S4096x512, .f32⟩
  | .local _ .vmem, ⟨1, _⟩ => ⟨S4096x512, .f32⟩
  | .local _ .vmem, ⟨2, _⟩ => ⟨S512x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S128x128, .f32⟩
  | .local _ .vmem, ⟨8, _⟩ => ⟨S4096x128, .f32⟩
  | .local _ .vmem, ⟨9, _⟩ => ⟨S4096x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4096x128_S4096x128_0_0 : ∀ a, (![0, 0] : Fin 2 → Nat) a + S4096x128.size a ≤ S4096x128.size a
  h_S4096x128 : 0 < S4096x128.numel
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  dot_S4096x512_S512x128_S4096x128_1_0_0_1_n_n_wf : DotDims.WF S4096x512 S512x128 S4096x128 [1] [0] [0] [1] [] []
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S65536x128.size a
  hwx1_2 : ∀ i : grid1.Coords, EltTy.bits .f32 = 32 ∨ (Rect.block (s := S65536x128) S4096x128.size (cc1_transform_2 i) (hinb1_2 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x512 : Shape := ⟨2, ![65536, 512]⟩
abbrev S2x1048576 : Shape := ⟨2, ![2, 1048576]⟩
abbrev S1048576 : Shape := ⟨1, ![1048576]⟩
abbrev S512x128 : Shape := ⟨2, ![512, 128]⟩
abbrev S128 : Shape := ⟨1, ![128]⟩
abbrev S128x128 : Shape := ⟨2, ![128, 128]⟩
abbrev S1x1048576 : Shape := ⟨2, ![1, 1048576]⟩
abbrev S65536x128 : Shape := ⟨2, ![65536, 128]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S1114112x128 : Shape := ⟨2, ![1114112, 128]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S65536x512, .f32⟩
  | 1 => ⟨S2x1048576, .i32⟩
  | 2 => ⟨S1048576, .f32⟩
  | 3 => ⟨S512x128, .f32⟩
  | 4 => ⟨S128, .f32⟩
  | 5 => ⟨S128x128, .f32⟩
  | 6 => ⟨S128, .f32⟩
  | 7 => ⟨S1x1048576, .i32⟩
  | 8 => ⟨S1048576, .i32⟩
  | 9 => ⟨S1x1048576, .i32⟩
  | 10 => ⟨S1048576, .i32⟩
  | 11 => ⟨S65536x128, .f32⟩
  | 12 => ⟨S65536, .i32⟩
  | 13 => ⟨S1114112, .i32⟩
  | 14 => ⟨S1114112, .i32⟩
  | 15 => ⟨S_, .f32⟩
  | 16 => ⟨S65536, .f32⟩
  | 17 => ⟨S1114112, .f32⟩
  | 18 => ⟨S_, .f32⟩
  | 19 => ⟨S65536, .f32⟩
  | 20 => ⟨S1114112x1, .i32⟩
  | 21 => ⟨S65536, .f32⟩
  | 22 => ⟨S_, .f32⟩
  | 23 => ⟨S65536, .f32⟩
  | 24 => ⟨S65536, .i1⟩
  | 25 => ⟨S65536, .f32⟩
  | 26 => ⟨S_, .f32⟩
  | 27 => ⟨S_, .f32⟩
  | 28 => ⟨S65536, .f32⟩
  | 29 => ⟨S65536, .f32⟩
  | 30 => ⟨S_, .i32⟩
  | 31 => ⟨S1114112, .i32⟩
  | 32 => ⟨S1114112, .i1⟩
  | 33 => ⟨S_, .i32⟩
  | 34 => ⟨S1114112, .i32⟩
  | 35 => ⟨S1114112, .i32⟩
  | 36 => ⟨S1114112, .i32⟩
  | 37 => ⟨S1114112x1, .i32⟩
  | 38 => ⟨S1114112, .f32⟩
  | 39 => ⟨S1114112, .f32⟩
  | 40 => ⟨S_, .i32⟩
  | 41 => ⟨S1114112, .i32⟩
  | 42 => ⟨S1114112, .i1⟩
  | 43 => ⟨S_, .i32⟩
  | 44 => ⟨S1114112, .i32⟩
  | 45 => ⟨S1114112, .i32⟩
  | 46 => ⟨S1114112, .i32⟩
  | 47 => ⟨S1114112x1, .i32⟩
  | 48 => ⟨S1114112, .f32⟩
  | 49 => ⟨S1114112, .f32⟩
  | 50 => ⟨S1114112x1, .f32⟩
  | 51 => ⟨S_, .i32⟩
  | 52 => ⟨S1114112, .i32⟩
  | 53 => ⟨S1114112, .i1⟩
  | 54 => ⟨S_, .i32⟩
  | 55 => ⟨S1114112, .i32⟩
  | 56 => ⟨S1114112, .i32⟩
  | 57 => ⟨S1114112, .i32⟩
  | 58 => ⟨S1114112x1, .i32⟩
  | 59 => ⟨S1114112x128, .f32⟩
  | 60 => ⟨S1114112x128, .f32⟩
  | 61 => ⟨S1114112x128, .f32⟩
  | 62 => ⟨S_, .f32⟩
  | 63 => ⟨S65536x128, .f32⟩
  | 64 => ⟨S1114112x1, .i32⟩
  | 65 => ⟨S65536x128, .f32⟩
  | 66 => ⟨S1x128, .f32⟩
  | 67 => ⟨S65536x128, .f32⟩
  | 68 => ⟨S65536x128, .f32⟩
  | 69 => ⟨S_, .f32⟩
  | 70 => ⟨S65536x128, .f32⟩
  | 71 => ⟨S65536x128, .f32⟩
  | 72 => ⟨S65536x128, .f32⟩
  | 73 => ⟨S65536, .i32⟩
  | 74 => ⟨S1114112, .i32⟩
  | 75 => ⟨S1114112, .i32⟩
  | 76 => ⟨S_, .f32⟩
  | 77 => ⟨S65536, .f32⟩
  | 78 => ⟨S1114112, .f32⟩
  | 79 => ⟨S_, .f32⟩
  | 80 => ⟨S65536, .f32⟩
  | 81 => ⟨S1114112x1, .i32⟩
  | 82 => ⟨S65536, .f32⟩
  | 83 => ⟨S_, .f32⟩
  | 84 => ⟨S65536, .f32⟩
  | 85 => ⟨S65536, .i1⟩
  | 86 => ⟨S65536, .f32⟩
  | 87 => ⟨S_, .f32⟩
  | 88 => ⟨S_, .f32⟩
  | 89 => ⟨S65536, .f32⟩
  | 90 => ⟨S65536, .f32⟩
  | 91 => ⟨S_, .i32⟩
  | 92 => ⟨S1114112, .i32⟩
  | 93 => ⟨S1114112, .i1⟩
  | 94 => ⟨S_, .i32⟩
  | 95 => ⟨S1114112, .i32⟩
  | 96 => ⟨S1114112, .i32⟩
  | 97 => ⟨S1114112, .i32⟩
  | 98 => ⟨S1114112x1, .i32⟩
  | 99 => ⟨S1114112, .f32⟩
  | 100 => ⟨S1114112, .f32⟩
  | 101 => ⟨S_, .i32⟩
  | 102 => ⟨S1114112, .i32⟩
  | 103 => ⟨S1114112, .i1⟩
  | 104 => ⟨S_, .i32⟩
  | 105 => ⟨S1114112, .i32⟩
  | 106 => ⟨S1114112, .i32⟩
  | 107 => ⟨S1114112, .i32⟩
  | 108 => ⟨S1114112x1, .i32⟩
  | 109 => ⟨S1114112, .f32⟩
  | 110 => ⟨S1114112, .f32⟩
  | 111 => ⟨S1114112x1, .f32⟩
  | 112 => ⟨S_, .i32⟩
  | 113 => ⟨S1114112, .i32⟩
  | 114 => ⟨S1114112, .i1⟩
  | 115 => ⟨S_, .i32⟩
  | 116 => ⟨S1114112, .i32⟩
  | 117 => ⟨S1114112, .i32⟩
  | 118 => ⟨S1114112, .i32⟩
  | 119 => ⟨S1114112x1, .i32⟩
  | 120 => ⟨S1114112x128, .f32⟩
  | 121 => ⟨S1114112x128, .f32⟩
  | 122 => ⟨S1114112x128, .f32⟩
  | 123 => ⟨S_, .f32⟩
  | 124 => ⟨S65536x128, .f32⟩
  | 125 => ⟨S1114112x1, .i32⟩
  | 126 => ⟨S65536x128, .f32⟩
  | 127 => ⟨S1x128, .f32⟩
  | _ => ⟨S65536x512, .f32⟩

abbrev hbmTy0_1 (i : Nat) : BufTy := match i % 128 with
  | 0 => ⟨S65536x128, .f32⟩
  | 1 => ⟨S65536x128, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S65536 : S_.BroadcastsInDim S65536 (![] : Fin 0 → Fin S65536.rank)
  bcast_S1114112_S1114112x1_0 : S1114112.BroadcastsInDim S1114112x1 (![0] : Fin 1 → Fin S1114112x1.rank)
  bcast_S_S1114112 : S_.BroadcastsInDim S1114112 (![] : Fin 0 → Fin S1114112.rank)
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  dot_S65536x512_S512x128_S65536x128_1_0_0_1_n_n_wf : DotDims.WF S65536x512 S512x128 S65536x128 [1] [0] [0] [1] [] []
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S65536x128_S128x128_S65536x128_1_0_0_1_n_n_wf : DotDims.WF S65536x128 S128x128 S65536x128 [1] [0] [0] [1] [] []

variable [Facts₀]

def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf
def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

class Facts : Prop extends Facts₀ where

variable [Facts]
-- ==== Proof.RunValue.lean ====
/-
  The kernel program's run, with its result array read.

  The program is two matrix-product regions among stretches of host operations. Its generated frame follows the
  buffer contents from the launch memory through every segment: a stretch of host operations applies its operations'
  functions to the contents it finds, and a region leaves its output array at what its grid points wrote back and every
  other buffer as it found it. The last of these contents is `Gen.W10`. Every unscoped buffer of the final memory holds
  `Gen.W10`'s value for it; the generated frame reads only the argument arrays from this fact. Here the result array
  `main_v94` is read as well, so that a value proof can start from `Gen.W10 m ρ c main_v94`.
-/
import proofs.«147385_j67362267070872_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the argument arrays end as launched. -/
theorem run_value : θ_run defs (onTc (τ := τ) (main (F := F))) ⟨m, fun _ => 0, ρ⟩ (fun r => ∀ c : Dev nD,
      r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.RunValue

end
-- ==== Proof.LayerTail.lean ====
/-
  The part of a graph-convolution layer that follows its matrix product, as one function of the product.

  A layer computes `h = x · W` and then, with one self-loop per node appended to the edge list and to the weights,
  the in-degree `deg` of every node as the sum of the weights of its incoming edges, `dinv = deg^(-1/2)` where
  `deg > 0` and `0` elsewhere, the edge coefficient `dinv[src] · w · dinv[dst]`, the messages
  `coefficient · h[src]`, their sum per destination node, and the bias. Everything after the product depends on `h`
  only through the gather `h[src]`. The definitions below spell these operations once, with the product `h`, the
  sources, the destinations, the weights and the bias as parameters; both layers of both programs apply them.
-/
import proofs.«147385_j67362267070872_1_alg».proof.Proof.Gen.ReferenceIdeal.Read

noncomputable section

namespace Cert.Layers

open Cert.ReferenceIdeal Cert.ReferenceIdeal.Gen Cert.ReferenceIdeal.Read Idealize.ShloMosaic Idealize.ShloMosaic.TcCoe

variable {F : FTy → Type} [FloatOps F]

/-- An end of every edge followed by one self-loop per node: the 1048576 given node numbers, then 0 … 65535. -/
def withLoops (s : (⟨S1048576, .i32⟩ : BufTy).Contents (Elt F)) : (⟨S1114112, .i32⟩ : BufTy).Contents (Elt F) :=
  concatenate S1114112 0 [⟨S1048576, s⟩, ⟨S65536, iotaInDim S65536 32 0⟩] concatenates_S1048576_S65536_S1114112_d0

/-- The edge weights followed by weight one for every self-loop. -/
def weights (w : (⟨S1048576, .f32⟩ : BufTy).Contents (Elt F)) : (⟨S1114112, .f32⟩ : BufTy).Contents (Elt F) :=
  concatenate S1114112 0 [⟨S1048576, w⟩, ⟨S65536, broadcastInDim S65536 ![] bcast_S_S65536 (constant S_ .f32 0x3F800000#32)⟩] concatenates_S1048576_S65536_S1114112_d0

/-- Node numbers as gather indices: a negative number counts from the end (65536 is added), as a column. -/
def wrapped (ix : (⟨S1114112, .i32⟩ : BufTy).Contents (Elt F)) : (⟨S1114112x1, .i32⟩ : BufTy).Contents (Elt F) :=
  broadcastInDim S1114112x1 ![0] bcast_S1114112_S1114112x1_0
    (select (cmpi .slt ix (broadcastInDim S1114112 ![] bcast_S_S1114112 (constantI S_ 32 0#32)))
      (addi ix (broadcastInDim S1114112 ![] bcast_S_S1114112 (constantI S_ 32 65536#32))) ix)

/-- The weighted in-degree of every node: the weights summed per destination. -/
def degree (dst : (⟨S1048576, .i32⟩ : BufTy).Contents (Elt F)) (w : (⟨S1048576, .f32⟩ : BufTy).Contents (Elt F)) : (⟨S65536, .f32⟩ : BufTy).Contents (Elt F) :=
  Host.scatterAdd scatter_S65536_S1114112x1_S1114112_n_0_0_1 (broadcastInDim S65536 ![] bcast_S_S65536 (constant S_ .f32 0x00000000#32))
    (broadcastInDim S1114112x1 ![0] bcast_S1114112_S1114112x1_0 (withLoops dst)) (weights w)

/-- `deg^(-1/2)` where the degree is positive, zero elsewhere. -/
def invSqrtDegree (dst : (⟨S1048576, .i32⟩ : BufTy).Contents (Elt F)) (w : (⟨S1048576, .f32⟩ : BufTy).Contents (Elt F)) : (⟨S65536, .f32⟩ : BufTy).Contents (Elt F) :=
  select (cmpf .ogt (degree dst w) (broadcastInDim S65536 ![] bcast_S_S65536 (constant S_ .f32 0x00000000#32)))
    (Host.rsqrt (degree dst w)) (broadcastInDim S65536 ![] bcast_S_S65536 (id (constant S_ .f32 0x00000000#32)))

/-- The coefficient of every edge: `dinv[src] · w · dinv[dst]`. -/
def coefficient (src dst : (⟨S1048576, .i32⟩ : BufTy).Contents (Elt F)) (w : (⟨S1048576, .f32⟩ : BufTy).Contents (Elt F)) : (⟨S1114112, .f32⟩ : BufTy).Contents (Elt F) :=
  mulf (mulf (Host.gather gather_S65536_S1114112x1_S1114112_n_0_n_n_0_1_1 (invSqrtDegree dst w) (wrapped (withLoops src))) (weights w))
    (Host.gather gather_S65536_S1114112x1_S1114112_n_0_n_n_0_1_1 (invSqrtDegree dst w) (wrapped (withLoops dst)))

/-- The layer after its product `h`: per node, the sum over its incoming edges of coefficient times `h`'s source row,
    plus the bias `b`. -/
def aggregate (h : (⟨S65536x128, .f32⟩ : BufTy).Contents (Elt F)) (src dst : (⟨S1048576, .i32⟩ : BufTy).Contents (Elt F)) (w : (⟨S1048576, .f32⟩ : BufTy).Contents (Elt F)) (b : (⟨S128, .f32⟩ : BufTy).Contents (Elt F)) : (⟨S65536x128, .f32⟩ : BufTy).Contents (Elt F) :=
  addf (Host.scatterAdd scatter_S65536x128_S1114112x1_S1114112x128_1_0_0_1 (broadcastInDim S65536x128 ![] bcast_S_S65536x128 (constant S_ .f32 0x00000000#32))
      (broadcastInDim S1114112x1 ![0] bcast_S1114112_S1114112x1_0 (withLoops dst))
      (mulf (broadcastInDim S1114112x128 ![0, 1] bcast_S1114112x1_S1114112x128_0_1 (broadcastInDim S1114112x1 ![0] bcast_S1114112_S1114112x1_0 (coefficient src dst w)))
        (Host.gather gather_S65536x128_S1114112x1_S1114112x128_1_0_n_n_0_1_1128 h (wrapped (withLoops src)))))
    (broadcastInDim S65536x128 ![0, 1] bcast_S1x128_S65536x128_0_1 (broadcastInDim S1x128 ![1] bcast_S128_S1x128_1 b))

/-- The first layer after its product: the aggregate, then the rectifier (the maximum with zero). -/
def tail1 (h : (⟨S65536x128, .f32⟩ : BufTy).Contents (Elt F)) (src dst : (⟨S1048576, .i32⟩ : BufTy).Contents (Elt F)) (w : (⟨S1048576, .f32⟩ : BufTy).Contents (Elt F)) (b : (⟨S128, .f32⟩ : BufTy).Contents (Elt F)) : (⟨S65536x128, .f32⟩ : BufTy).Contents (Elt F) :=
  maximumf (aggregate h src dst w b) (broadcastInDim S65536x128 ![] bcast_S_S65536x128 (constant S_ .f32 0x00000000#32))

/-- The second layer after its product: the aggregate alone. -/
def tail2 (h : (⟨S65536x128, .f32⟩ : BufTy).Contents (Elt F)) (src dst : (⟨S1048576, .i32⟩ : BufTy).Contents (Elt F)) (w : (⟨S1048576, .f32⟩ : BufTy).Contents (Elt F)) (b : (⟨S128, .f32⟩ : BufTy).Contents (Elt F)) : (⟨S65536x128, .f32⟩ : BufTy).Contents (Elt F) :=
  aggregate h src dst w b

/-- The whole network as a function of the arguments: the second layer's tail of the product of the first layer's
    output with the second weight matrix, the first layer's output being its tail of the product `x0 · x3`. -/
def network (x0 : (⟨S65536x512, .f32⟩ : BufTy).Contents (Elt F)) (x1 : (⟨S2x1048576, .i32⟩ : BufTy).Contents (Elt F)) (x2 : (⟨S1048576, .f32⟩ : BufTy).Contents (Elt F)) (x3 : (⟨S512x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) : (⟨S65536x128, .f32⟩ : BufTy).Contents (Elt F) :=
  tail2 (Host.dotGeneral dot_S65536x128_S128x128_S65536x128_1_0_0_1_n_n none
      (tail1 (val_main_v4 (F := F) x0 x3) (val_main_v1 (F := F) x1) (val_main_v3 (F := F) x1) x2 x4) x5)
    (val_main_v1 (F := F) x1) (val_main_v3 (F := F) x1) x2 x6

/-- The reference's first hidden activation is the first tail of its first product. -/
theorem val_main_v49_eq (x0 : (⟨S65536x512, .f32⟩ : BufTy).Contents (Elt F)) (x1 : (⟨S2x1048576, .i32⟩ : BufTy).Contents (Elt F)) (x2 : (⟨S1048576, .f32⟩ : BufTy).Contents (Elt F)) (x3 : (⟨S512x128, .f32⟩ : BufTy).Contents (Elt F)) (x4 : (⟨S128, .f32⟩ : BufTy).Contents (Elt F)) :
    val_main_v49 (F := F) x0 x1 x2 x3 x4 = tail1 (val_main_v4 (F := F) x0 x3) (val_main_v1 (F := F) x1) (val_main_v3 (F := F) x1) x2 x4 := rfl

/-- The reference's result is the network function of its arguments. -/
theorem val_main_v94_eq_network (x0 : (⟨S65536x512, .f32⟩ : BufTy).Contents (Elt F)) (x1 : (⟨S2x1048576, .i32⟩ : BufTy).Contents (Elt F)) (x2 : (⟨S1048576, .f32⟩ : BufTy).Contents (Elt F)) (x3 : (⟨S512x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) :
    val_main_v94 (F := F) x0 x1 x2 x3 x4 x5 x6 = network x0 x1 x2 x3 x4 x5 x6 := rfl

end Cert.Layers

end
-- ==== Proof.KernelTail.lean ====
/-
  The kernel program's host operations, stretch by stretch, as functions of the buffers they read.

  Between its two matrix-product regions the kernel program runs the same host operations as the reference: before the
  first region it splits the edge list into sources and destinations; between the regions it turns the first product
  into the first hidden activation; after the second region it turns the second product into the result. For ANY
  buffer contents `V` a stretch starts from, what it leaves in its last buffer is the corresponding layer tail
  (`Cert.Layers.tail1`, `tail2`) of what `V` holds at the product, the sources, the destinations, the edge weights
  and the bias; and a stretch leaves alone every buffer it does not write.
-/
import proofs.«147385_j67362267070872_1_alg».proof.Proof.Gen.KernelIdeal.Launch
import proofs.«147385_j67362267070872_1_alg».proof.Proof.LayerTail
import Idealize.ShloMosaic.Lib.StableHlo.Run

set_option maxRecDepth 16384

noncomputable section

namespace Cert.KernelIdeal.HostTail

open Cert.KernelIdeal Cert.KernelIdeal.Gen Idealize.ShloMosaic Idealize.ShloMosaic.TcCoe Idealize.SL.Sem Idealize.ShloMosaic.StableHlo

variable {F : FTy → Type} [FloatOps F]

/-! ## Before the first region: the edge list split into sources and destinations -/

/-- The sources: row 0 of the edge list, as a vector. -/
theorem first_v1 (V : Valuation τ sig (Elt F)) :
    StableHlo.after hostOps0 V (Proc.devRef .tc main_v1) = Cert.ReferenceIdeal.Read.val_main_v1 (F := F) (V (Proc.devRef .tc main_arg1)) := by
  after_results_simp <;> rfl

/-- The destinations: row 1 of the edge list, as a vector. -/
theorem first_v3 (V : Valuation τ sig (Elt F)) :
    StableHlo.after hostOps0 V (Proc.devRef .tc main_v3) = Cert.ReferenceIdeal.Read.val_main_v3 (F := F) (V (Proc.devRef .tc main_arg1)) := by
  after_results_simp <;> rfl

theorem first_keep_main_arg0 (V : Valuation τ sig (Elt F)) :
    StableHlo.after hostOps0 V (Proc.devRef .tc main_arg0) = V (Proc.devRef .tc main_arg0) := by
  after_results_simp
theorem first_keep_main_arg2 (V : Valuation τ sig (Elt F)) :
    StableHlo.after hostOps0 V (Proc.devRef .tc main_arg2) = V (Proc.devRef .tc main_arg2) := by
  after_results_simp
theorem first_keep_main_arg3 (V : Valuation τ sig (Elt F)) :
    StableHlo.after hostOps0 V (Proc.devRef .tc main_arg3) = V (Proc.devRef .tc main_arg3) := by
  after_results_simp
theorem first_keep_main_arg4 (V : Valuation τ sig (Elt F)) :
    StableHlo.after hostOps0 V (Proc.devRef .tc main_arg4) = V (Proc.devRef .tc main_arg4) := by
  after_results_simp
theorem first_keep_main_arg5 (V : Valuation τ sig (Elt F)) :
    StableHlo.after hostOps0 V (Proc.devRef .tc main_arg5) = V (Proc.devRef .tc main_arg5) := by
  after_results_simp
theorem first_keep_main_arg6 (V : Valuation τ sig (Elt F)) :
    StableHlo.after hostOps0 V (Proc.devRef .tc main_arg6) = V (Proc.devRef .tc main_arg6) := by
  after_results_simp

/-! ## Between the regions: the first product into the first hidden activation -/

set_option maxHeartbeats 8000000 in
/-- The stretch leaves at `main_v49` the first layer's tail of what it finds at the first product `main_v4`, the sources
    `main_v1`, the destinations `main_v3`, the edge weights and the first bias. -/
theorem mid_tail (V : Valuation τ sig (Elt F)) :
    StableHlo.after hostOps1_3 (StableHlo.after hostOps1_2 (StableHlo.after hostOps1_1 (StableHlo.after hostOps1 V))) (Proc.devRef .tc main_v49)
      = Cert.Layers.tail1 (V (Proc.devRef .tc main_v4)) (V (Proc.devRef .tc main_v1)) (V (Proc.devRef .tc main_v3))
          (V (Proc.devRef .tc main_arg2)) (V (Proc.devRef .tc main_arg4)) := by
  after_results_simp <;> rfl

theorem mid_keep_main_v1 (V : Valuation τ sig (Elt F)) :
    StableHlo.after hostOps1_3 (StableHlo.after hostOps1_2 (StableHlo.after hostOps1_1 (StableHlo.after hostOps1 V))) (Proc.devRef .tc main_v1) = V (Proc.devRef .tc main_v1) := by
  after_results_simp
theorem mid_keep_main_v3 (V : Valuation τ sig (Elt F)) :
    StableHlo.after hostOps1_3 (StableHlo.after hostOps1_2 (StableHlo.after hostOps1_1 (StableHlo.after hostOps1 V))) (Proc.devRef .tc main_v3) = V (Proc.devRef .tc main_v3) := by
  after_results_simp
theorem mid_keep_main_arg2 (V : Valuation τ sig (Elt F)) :
    StableHlo.after hostOps1_3 (StableHlo.after hostOps1_2 (StableHlo.after hostOps1_1 (StableHlo.after hostOps1 V))) (Proc.devRef .tc main_arg2) = V (Proc.devRef .tc main_arg2) := by
  after_results_simp
theorem mid_keep_main_arg5 (V : Valuation τ sig (Elt F)) :
    StableHlo.after hostOps1_3 (StableHlo.after hostOps1_2 (StableHlo.after hostOps1_1 (StableHlo.after hostOps1 V))) (Proc.devRef .tc main_arg5) = V (Proc.devRef .tc main_arg5) := by
  after_results_simp
theorem mid_keep_main_arg6 (V : Valuation τ sig (Elt F)) :
    StableHlo.after hostOps1_3 (StableHlo.after hostOps1_2 (StableHlo.after hostOps1_1 (StableHlo.after hostOps1 V))) (Proc.devRef .tc main_arg6) = V (Proc.devRef .tc main_arg6) := by
  after_results_simp

/-! ## After the second region: the second product into the result -/

set_option maxHeartbeats 8000000 in
/-- The stretch leaves at `main_v94` the second layer's tail of what it finds at the second product `main_v50`, the
    sources, the destinations, the edge weights and the second bias. -/
theorem last_tail (V : Valuation τ sig (Elt F)) :
    StableHlo.after hostOps2_2 (StableHlo.after hostOps2_1 (StableHlo.after hostOps2 V)) (Proc.devRef .tc main_v94)
      = Cert.Layers.tail2 (V (Proc.devRef .tc main_v50)) (V (Proc.devRef .tc main_v1)) (V (Proc.devRef .tc main_v3))
          (V (Proc.devRef .tc main_arg2)) (V (Proc.devRef .tc main_arg6)) := by
  after_results_simp <;> rfl

end Cert.KernelIdeal.HostTail

end
-- ==== Proof.ProductValue.lean ====
/-
  What each matrix-product region leaves in its output array, on the extended reals.

  A region multiplies a tall matrix by a small one, 4096 rows at a time: grid point `t` loads rows
  `4096·t … 4096·t + 4095` of the left operand and the whole right operand, and writes back the 4096 × 128 block of
  products. An entry of a block is the sum over the contraction index of a row entry times a column entry; the row
  entry of the block is the left operand's entry `4096·t` rows further down, and the sixteen blocks tile the output.
  So the array ends holding, at every index `(p, q)`, the sum over `k` of `left (p, k) · right (k, q)`: the whole
  product, which is what the host's `dot_general` of the whole operands is at that index.
-/
import proofs.«147385_j67362267070872_1_alg».proof.Proof.Gen.KernelIdeal.Frame
import proofs.«147385_j67362267070872_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.ProductValue

open Cert.KernelIdeal Cert.KernelIdeal.Gen
open Idealize.ShloMosaic Idealize.ShloMosaic.TcCoe Idealize.SL.Sem
open Idealize.ShloMosaic.Pipeline (Dat Cfg Window)

/-- The body's rectangles start at the origin. -/
theorem hz : (![0, 0] : Fin 2 → Nat) = fun _ => 0 := funext fun a => by fin_cases a <;> rfl

/-! ## Region 0: a 512-long contraction, sixteen blocks of 4096 rows -/

/-- In a block, the left operand's entry that meets contraction index `k` in output entry `y`: row `y 0`, column `k`. -/
abbrev lrow0 (y : S4096x128.Idx) (k : Fin 512) : S4096x512.Idx := fun a => match a with
  | ⟨0, _⟩ => ⟨(y 0).val, (y 0).isLt⟩
  | ⟨1, _⟩ => ⟨k.val, k.isLt⟩
/-- The right operand's: row `k`, column `y 1`. -/
abbrev rcol0 (y : S4096x128.Idx) (k : Fin 512) : S512x128.Idx := fun a => match a with
  | ⟨0, _⟩ => ⟨k.val, k.isLt⟩
  | ⟨1, _⟩ => ⟨(y 1).val, (y 1).isLt⟩

theorem lhs0_0 (y : S4096x128.Idx) (q : dot_S4096x512_S512x128_S4096x128_1_0_0_1_n_n.contr.Idx) : (dot_S4096x512_S512x128_S4096x128_1_0_0_1_n_n.lhsIdx y q 0).val = (y 0).val := by
  unfold DotDims.lhsIdx
  rw [dif_neg (show ¬(0 : Fin S4096x512.rank) ∈ dot_S4096x512_S512x128_S4096x128_1_0_0_1_n_n.lhsBatch by decide), dif_pos (show (0 : Fin S4096x512.rank) ∈ dot_S4096x512_S512x128_S4096x128_1_0_0_1_n_n.lhsNonContracting by decide)]
  rfl
theorem lhs0_1 (y : S4096x128.Idx) (q : dot_S4096x512_S512x128_S4096x128_1_0_0_1_n_n.contr.Idx) : (dot_S4096x512_S512x128_S4096x128_1_0_0_1_n_n.lhsIdx y q 1).val = (q ⟨0, by decide⟩).val :=
  dot_S4096x512_S512x128_S4096x128_1_0_0_1_n_n.lhsIdx_val_of_single rfl y q
theorem rhs0_0 (y : S4096x128.Idx) (q : dot_S4096x512_S512x128_S4096x128_1_0_0_1_n_n.contr.Idx) : (dot_S4096x512_S512x128_S4096x128_1_0_0_1_n_n.rhsIdx y q 0).val = (q ⟨0, by decide⟩).val :=
  dot_S4096x512_S512x128_S4096x128_1_0_0_1_n_n.rhsIdx_val_of_single rfl y q
theorem rhs0_1 (y : S4096x128.Idx) (q : dot_S4096x512_S512x128_S4096x128_1_0_0_1_n_n.contr.Idx) : (dot_S4096x512_S512x128_S4096x128_1_0_0_1_n_n.rhsIdx y q 1).val = (y 1).val := by
  unfold DotDims.rhsIdx
  rw [dif_neg (show ¬(1 : Fin S512x128.rank) ∈ dot_S4096x512_S512x128_S4096x128_1_0_0_1_n_n.rhsBatch by decide), dif_pos (show (1 : Fin S512x128.rank) ∈ dot_S4096x512_S512x128_S4096x128_1_0_0_1_n_n.rhsNonContracting by decide)]
  rfl

/-- The body's stored value at an entry of the block: rounding to bf16 is the identity on the extended reals and the
    accumulator is zero, so it is the plain sum over the contraction index of row entry times column entry. -/
theorem pay0_apply (x0 : Vec Ideal S4096x512 .f32) (x1 : Vec Ideal S512x128 .f32) (y : S4096x128.Idx) :
    k0_pay1 (F := Ideal) x0 x1 y = ∑ k : Fin 512, x0 (lrow0 y k) * x1 (rcol0 y k) := by
  unfold k0_pay1
  refine (Ideal.matmul_constant_zero_apply dot_S4096x512_S512x128_S4096x128_1_0_0_1_n_n none (φ₁ := .bf16) (φ₂ := .bf16) (x0 : FVec Ideal S4096x512 .bf16) (x1 : FVec Ideal S512x128 .bf16) y).trans ?_
  rw [← Equiv.sum_comp (ValueIdx.contrEquiv1 dot_S4096x512_S512x128_S4096x128_1_0_0_1_n_n 512 rfl rfl).symm]
  refine Finset.sum_congr rfl fun k _ => ?_
  have hk := ValueIdx.contrEquiv1_symm_val dot_S4096x512_S512x128_S4096x128_1_0_0_1_n_n 512 rfl rfl k
  have el : dot_S4096x512_S512x128_S4096x128_1_0_0_1_n_n.lhsIdx y ((ValueIdx.contrEquiv1 dot_S4096x512_S512x128_S4096x128_1_0_0_1_n_n 512 rfl rfl).symm k) = lrow0 y k := funext fun a => Fin.ext (by
    match a with
    | ⟨0, _⟩ => exact lhs0_0 _ _
    | ⟨1, _⟩ => exact (lhs0_1 _ _).trans hk)
  have er : dot_S4096x512_S512x128_S4096x128_1_0_0_1_n_n.rhsIdx y ((ValueIdx.contrEquiv1 dot_S4096x512_S512x128_S4096x128_1_0_0_1_n_n 512 rfl rfl).symm k) = rcol0 y k := funext fun a => Fin.ext (by
    match a with
    | ⟨0, _⟩ => exact (rhs0_0 _ _).trans hk
    | ⟨1, _⟩ => exact rhs0_1 _ _)
  rw [el, er]

/-- The printed index maps over the sixteen grid points: the output block and the left operand's block are at row block
    `t`, column block 0; the right operand's block is always the whole operand. -/
theorem idx_facts0 : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- WHAT GRID POINT `t` WRITES BACK is block `t` of the whole product of the arrays the region finds. -/
theorem flushed0_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Cert.ReferenceIdeal.Read.val_main_v4 (F := Ideal) (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S4096x512) hz, View.ld_unit_zero (S := S512x128) hz]
  obtain ⟨e0, e1, e2, e3, e4, e5⟩ := idx_facts0 t
  funext y
  show k0_pay1 (F := Ideal) (iblk0 V c 0 t) (iblk0 V c 1 t) y
    = Cert.ReferenceIdeal.Read.val_main_v4 (F := Ideal) (V c main_arg0) (V c main_arg3) (((cfg0.win 2).blk t).view.emb y)
  refine (pay0_apply (iblk0 V c 0 t) (iblk0 V c 1 t) y).trans ?_
  refine Eq.trans ?_ (Cert.ReferenceIdeal.Read.val_main_v4_apply (V c main_arg0) (V c main_arg3) (((cfg0.win 2).blk t).view.emb y)).symm
  refine Finset.sum_congr rfl fun k _ => ?_
  have hl : ((cfg0.win 0).blk t).view.emb (lrow0 y k) = Cert.ReferenceIdeal.Read.lidx_main_v4 (((cfg0.win 2).blk t).view.emb y) k := by
    funext a; apply Fin.ext
    match a with
    | ⟨0, _⟩ => show win0_0.index t (0 : Fin 2) * 4096 + 1 * (y 0).val = win0_2.index t (0 : Fin 2) * 4096 + 1 * (y 0).val; omega
    | ⟨1, _⟩ => show win0_0.index t (1 : Fin 2) * 512 + 1 * k.val = k.val; omega
  have hr : ((cfg0.win 1).blk t).view.emb (rcol0 y k) = Cert.ReferenceIdeal.Read.ridx_main_v4 (((cfg0.win 2).blk t).view.emb y) k := by
    funext a; apply Fin.ext
    match a with
    | ⟨0, _⟩ => show win0_1.index t (0 : Fin 2) * 512 + 1 * k.val = k.val; omega
    | ⟨1, _⟩ => show win0_1.index t (1 : Fin 2) * 128 + 1 * (y 1).val = win0_2.index t (1 : Fin 2) * 128 + 1 * (y 1).val; omega
  have h0 : iblk0 V c 0 t (lrow0 y k) = V c main_arg0 (Cert.ReferenceIdeal.Read.lidx_main_v4 (((cfg0.win 2).blk t).view.emb y) k) := congrArg (V c main_arg0) hl
  have h1 : iblk0 V c 1 t (rcol0 y k) = V c main_arg3 (Cert.ReferenceIdeal.Read.ridx_main_v4 (((cfg0.win 2).blk t).view.emb y) k) := congrArg (V c main_arg3) hr
  rw [h0, h1]

/-- An index of the output array is in grid point `t`'s block iff each coordinate is in the block's range on its axis. -/
theorem mem_blk0 (t : Fin cfg0.N) (i : S65536x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v4).slice (win0_2.rect t)).set ↔ _
  rw [View.set_slice_whole, Rect.mem_set_unit]
  exact Iff.rfl

/-- THE OUTPUT ARRAY after the region is the whole product: row `p` is in the block of grid point `p / 4096`. -/
theorem final0 (V : (c : Dev nD) → (b : Ref sig .tc) → Buf (Elt Ideal) ((c : Thread nD τ).loc b)) (c : Dev nD) :
    (dat0 (F := Ideal) V c).arrAt 2 cfg0.N = Cert.ReferenceIdeal.Read.val_main_v4 (F := Ideal) (V c main_arg0) (V c main_arg3) :=
  (dat0 (F := Ideal) V c).arrAt_eq_of_cover 2 _ (fun t _ => flushed0_eq V c t) fun i => by
    have h0 : (i 0).val < 65536 := (i 0).isLt
    have h1 : (i 1).val < 128 := (i 1).isLt
    let t : Fin cfg0.N := ⟨(i 0).val / 4096, by rw [show cfg0.N = 16 from N_0]; omega⟩
    obtain ⟨e0, e1, -, -, -, -⟩ := idx_facts0 t
    have e0' : win0_2.index t (0 : Fin 2) = (i 0).val / 4096 := e0
    refine ⟨t, flush0_2 t, ?_⟩
    rw [mem_blk0]
    intro a
    match a with
    | ⟨0, _⟩ => show win0_2.index t (0 : Fin 2) * 4096 ≤ (i 0).val ∧ (i 0).val < win0_2.index t (0 : Fin 2) * 4096 + 4096; omega
    | ⟨1, _⟩ => show win0_2.index t (1 : Fin 2) * 128 ≤ (i 1).val ∧ (i 1).val < win0_2.index t (1 : Fin 2) * 128 + 128; omega

/-! ## Region 1: a 128-long contraction, sixteen blocks of 4096 rows -/

/-- In a block, the left operand's entry that meets contraction index `k` in output entry `y`: row `y 0`, column `k`. -/
abbrev lrow1 (y : S4096x128.Idx) (k : Fin 128) : S4096x128.Idx := fun a => match a with
  | ⟨0, _⟩ => ⟨(y 0).val, (y 0).isLt⟩
  | ⟨1, _⟩ => ⟨k.val, k.isLt⟩
/-- The right operand's: row `k`, column `y 1`. -/
abbrev rcol1 (y : S4096x128.Idx) (k : Fin 128) : S128x128.Idx := fun a => match a with
  | ⟨0, _⟩ => ⟨k.val, k.isLt⟩
  | ⟨1, _⟩ => ⟨(y 1).val, (y 1).isLt⟩

theorem lhs1_0 (y : S4096x128.Idx) (q : dot_S4096x128_S128x128_S4096x128_1_0_0_1_n_n.contr.Idx) : (dot_S4096x128_S128x128_S4096x128_1_0_0_1_n_n.lhsIdx y q 0).val = (y 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs1_1 (y : S4096x128.Idx) (q : dot_S4096x128_S128x128_S4096x128_1_0_0_1_n_n.contr.Idx) : (dot_S4096x128_S128x128_S4096x128_1_0_0_1_n_n.lhsIdx y q 1).val = (q ⟨0, by decide⟩).val :=
  dot_S4096x128_S128x128_S4096x128_1_0_0_1_n_n.lhsIdx_val_of_single rfl y q
theorem rhs1_0 (y : S4096x128.Idx) (q : dot_S4096x128_S128x128_S4096x128_1_0_0_1_n_n.contr.Idx) : (dot_S4096x128_S128x128_S4096x128_1_0_0_1_n_n.rhsIdx y q 0).val = (q ⟨0, by decide⟩).val :=
  dot_S4096x128_S128x128_S4096x128_1_0_0_1_n_n.rhsIdx_val_of_single rfl y q
theorem rhs1_1 (y : S4096x128.Idx) (q : dot_S4096x128_S128x128_S4096x128_1_0_0_1_n_n.contr.Idx) : (dot_S4096x128_S128x128_S4096x128_1_0_0_1_n_n.rhsIdx y q 1).val = (y 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The body's stored value at an entry of the block: the shape cast to the same shape and the rounding to bf16 are the
    identity on the extended reals and the accumulator is zero, so it is the plain sum over the contraction index. -/
theorem pay1_apply (x0 : Vec Ideal S4096x128 .f32) (x1 : Vec Ideal S128x128 .f32) (y : S4096x128.Idx) :
    k1_pay1 (F := Ideal) x0 x1 y = ∑ k : Fin 128, x0 (lrow1 y k) * x1 (rcol1 y k) := by
  have hs : shapeCast S4096x128 x0 shapeCasts_S4096x128_S4096x128 = x0 := shapeCast_self x0 _
  unfold k1_pay1
  rw [hs]
  refine (Ideal.matmul_constant_zero_apply dot_S4096x128_S128x128_S4096x128_1_0_0_1_n_n none (φ₁ := .bf16) (φ₂ := .bf16) (x0 : FVec Ideal S4096x128 .bf16) (x1 : FVec Ideal S128x128 .bf16) y).trans ?_
  rw [← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx y ((ValueIdx.contrEquiv1 dot_S4096x128_S128x128_S4096x128_1_0_0_1_n_n 128 rfl rfl).symm k) = lrow1 y k := funext fun a => Fin.ext (by
    match a with
    | ⟨0, _⟩ => exact lhs1_0 _ _
    | ⟨1, _⟩ => exact (lhs1_1 _ _).trans hk)
  have er : dot_S4096x128_S128x128_S4096x128_1_0_0_1_n_n.rhsIdx y ((ValueIdx.contrEquiv1 dot_S4096x128_S128x128_S4096x128_1_0_0_1_n_n 128 rfl rfl).symm k) = rcol1 y k := funext fun a => Fin.ext (by
    match a with
    | ⟨0, _⟩ => exact (rhs1_0 _ _).trans hk
    | ⟨1, _⟩ => exact rhs1_1 _ _)
  rw [el, er]

/-- The host's product of a 65536 × 128 matrix with a 128 × 128 one, read at an index: the sum over the contraction index. -/
theorem product1_apply (X : (⟨Cert.ReferenceIdeal.S65536x128, .f32⟩ : BufTy).Contents (Elt Ideal)) (Wt : (⟨Cert.ReferenceIdeal.S128x128, .f32⟩ : BufTy).Contents (Elt Ideal)) (i : Cert.ReferenceIdeal.S65536x128.Idx) :
    Host.dotGeneral (F := Ideal) (φ₁ := .f32) (φ₂ := .f32) Cert.ReferenceIdeal.dot_S65536x128_S128x128_S65536x128_1_0_0_1_n_n none X Wt i
      = ∑ k : Fin 128, X (Cert.ReferenceIdeal.Read.lidx_main_v50 i k) * Wt (Cert.ReferenceIdeal.Read.ridx_main_v50 i k) := by
  simp only [Host.dotGeneral]
  rw [Ideal.dotGeneral_apply, ← Equiv.sum_comp (ValueIdx.contrEquiv1 Cert.ReferenceIdeal.dot_S65536x128_S128x128_S65536x128_1_0_0_1_n_n 128 rfl rfl).symm]
  refine Finset.sum_congr rfl fun k _ => ?_
  have hk := ValueIdx.contrEquiv1_symm_val Cert.ReferenceIdeal.dot_S65536x128_S128x128_S65536x128_1_0_0_1_n_n 128 rfl rfl k
  have el : Cert.ReferenceIdeal.dot_S65536x128_S128x128_S65536x128_1_0_0_1_n_n.lhsIdx i ((ValueIdx.contrEquiv1 Cert.ReferenceIdeal.dot_S65536x128_S128x128_S65536x128_1_0_0_1_n_n 128 rfl rfl).symm k) = Cert.ReferenceIdeal.Read.lidx_main_v50 i k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S65536x128_S128x128_S65536x128_1_0_0_1_n_n.rhsIdx i ((ValueIdx.contrEquiv1 Cert.ReferenceIdeal.dot_S65536x128_S128x128_S65536x128_1_0_0_1_n_n 128 rfl rfl).symm k) = Cert.ReferenceIdeal.Read.ridx_main_v50 i k := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

/-- The printed index maps over the sixteen grid points: the output block and the left operand's block are at row block
    `t`, column block 0; the right operand's block is always the whole operand. -/
theorem idx_facts1 : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- WHAT GRID POINT `t` WRITES BACK is block `t` of the whole product of the arrays the region finds. -/
theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S65536x128_S128x128_S65536x128_1_0_0_1_n_n none (V c main_v49) (V c main_arg5)
        : (⟨Cert.ReferenceIdeal.S65536x128, .f32⟩ : BufTy).Contents (Elt Ideal)) := by
  show (cfg1.win 2).cut (grid1.coords t) ((dat1 (F := Ideal) V c).after 2 t) = _
  rw [after1_2]
  unfold out1_2
  rw [View.canon_unit_zero hz]
  simp only [View.ld_unit_zero (S := S4096x128) hz, View.ld_unit_zero (S := S128x128) hz]
  obtain ⟨e0, e1, e2, e3, e4, e5⟩ := idx_facts1 t
  funext y
  show k1_pay1 (F := Ideal) (iblk1 V c 0 t) (iblk1 V c 1 t) y
    = Host.dotGeneral (F := Ideal) (φ₁ := .f32) (φ₂ := .f32) Cert.ReferenceIdeal.dot_S65536x128_S128x128_S65536x128_1_0_0_1_n_n none (V c main_v49) (V c main_arg5) (((cfg1.win 2).blk t).view.emb y)
  refine (pay1_apply (iblk1 V c 0 t) (iblk1 V c 1 t) y).trans ?_
  refine Eq.trans ?_ (product1_apply (V c main_v49) (V c main_arg5) (((cfg1.win 2).blk t).view.emb y)).symm
  refine Finset.sum_congr rfl fun k _ => ?_
  have hl : ((cfg1.win 0).blk t).view.emb (lrow1 y k) = Cert.ReferenceIdeal.Read.lidx_main_v50 (((cfg1.win 2).blk t).view.emb y) k := by
    funext a; apply Fin.ext
    match a with
    | ⟨0, _⟩ => show win1_0.index t (0 : Fin 2) * 4096 + 1 * (y 0).val = win1_2.index t (0 : Fin 2) * 4096 + 1 * (y 0).val; omega
    | ⟨1, _⟩ => show win1_0.index t (1 : Fin 2) * 128 + 1 * k.val = k.val; omega
  have hr : ((cfg1.win 1).blk t).view.emb (rcol1 y k) = Cert.ReferenceIdeal.Read.ridx_main_v50 (((cfg1.win 2).blk t).view.emb y) k := by
    funext a; apply Fin.ext
    match a with
    | ⟨0, _⟩ => show win1_1.index t (0 : Fin 2) * 128 + 1 * k.val = k.val; omega
    | ⟨1, _⟩ => show win1_1.index t (1 : Fin 2) * 128 + 1 * (y 1).val = win1_2.index t (1 : Fin 2) * 128 + 1 * (y 1).val; omega
  have h0 : iblk1 V c 0 t (lrow1 y k) = V c main_v49 (Cert.ReferenceIdeal.Read.lidx_main_v50 (((cfg1.win 2).blk t).view.emb y) k) := congrArg (V c main_v49) hl
  have h1 : iblk1 V c 1 t (rcol1 y k) = V c main_arg5 (Cert.ReferenceIdeal.Read.ridx_main_v50 (((cfg1.win 2).blk t).view.emb y) k) := congrArg (V c main_arg5) hr
  rw [h0, h1]

/-- An index of the output array is in grid point `t`'s block iff each coordinate is in the block's range on its axis. -/
theorem mem_blk1 (t : Fin cfg1.N) (i : S65536x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v50).slice (win1_2.rect t)).set ↔ _
  rw [View.set_slice_whole, Rect.mem_set_unit]
  exact Iff.rfl

/-- THE OUTPUT ARRAY after the region is the whole product: row `p` is in the block of grid point `p / 4096`. -/
theorem final1 (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S65536x128_S128x128_S65536x128_1_0_0_1_n_n none (V c main_v49) (V c main_arg5) :=
  (dat1 (F := Ideal) V c).arrAt_eq_of_cover 2 _ (fun t _ => flushed1_eq V c t) fun i => by
    have h0 : (i 0).val < 65536 := (i 0).isLt
    have h1 : (i 1).val < 128 := (i 1).isLt
    let t : Fin cfg1.N := ⟨(i 0).val / 4096, by rw [show cfg1.N = 16 from N_1]; omega⟩
    obtain ⟨e0, e1, -, -, -, -⟩ := idx_facts1 t
    have e0' : win1_2.index t (0 : Fin 2) = (i 0).val / 4096 := e0
    refine ⟨t, flush1_2 t, ?_⟩
    rw [mem_blk1]
    intro a
    match a with
    | ⟨0, _⟩ => show win1_2.index t (0 : Fin 2) * 4096 ≤ (i 0).val ∧ (i 0).val < win1_2.index t (0 : Fin 2) * 4096 + 4096; omega
    | ⟨1, _⟩ => show win1_2.index t (1 : Fin 2) * 128 ≤ (i 1).val ∧ (i 1).val < win1_2.index t (1 : Fin 2) * 128 + 128; omega

end Cert.KernelIdeal.ProductValue

end
-- ==== Proof.KernelValue.lean ====
/-
  The kernel program's result array, on the extended reals, as the network function of its arguments.

  The frame's last boundary contents `Gen.W10` are reached from the launch memory through ten segments. Reading them
  backwards at the result buffer: the last stretch of host operations makes the result the second layer's tail of the
  second region's output array; that array is the whole product of the first hidden activation with the second weight
  matrix; the middle stretch makes the activation the first layer's tail of the first region's output array; that array is
  the whole product of the features with the first weight matrix; and the sources, destinations, weights and biases
  every stretch reads are the launch memory's, since no segment in between writes them.
-/
import proofs.«147385_j67362267070872_1_alg».proof.Proof.Gen.KernelIdeal.Frame
import proofs.«147385_j67362267070872_1_alg».proof.Proof.KernelTail
import proofs.«147385_j67362267070872_1_alg».proof.Proof.ProductValue

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## At the first region's entry -/

theorem W1_v1 : W1 m ρ c (Proc.devRef .tc main_v1) = Cert.ReferenceIdeal.Read.val_main_v1 (F := Ideal) (m ((c : Thread nD τ).loc main_arg1)) :=
  HostTail.first_v1 (W0 m ρ c)
theorem W1_v3 : W1 m ρ c (Proc.devRef .tc main_v3) = Cert.ReferenceIdeal.Read.val_main_v3 (F := Ideal) (m ((c : Thread nD τ).loc main_arg1)) :=
  HostTail.first_v3 (W0 m ρ c)
theorem W1_arg0 : W1 m ρ c (Proc.devRef .tc main_arg0) = m ((c : Thread nD τ).loc main_arg0) := HostTail.first_keep_main_arg0 (W0 m ρ c)
theorem W1_arg2 : W1 m ρ c (Proc.devRef .tc main_arg2) = m ((c : Thread nD τ).loc main_arg2) := HostTail.first_keep_main_arg2 (W0 m ρ c)
theorem W1_arg3 : W1 m ρ c (Proc.devRef .tc main_arg3) = m ((c : Thread nD τ).loc main_arg3) := HostTail.first_keep_main_arg3 (W0 m ρ c)
theorem W1_arg4 : W1 m ρ c (Proc.devRef .tc main_arg4) = m ((c : Thread nD τ).loc main_arg4) := HostTail.first_keep_main_arg4 (W0 m ρ c)
theorem W1_arg5 : W1 m ρ c (Proc.devRef .tc main_arg5) = m ((c : Thread nD τ).loc main_arg5) := HostTail.first_keep_main_arg5 (W0 m ρ c)
theorem W1_arg6 : W1 m ρ c (Proc.devRef .tc main_arg6) = m ((c : Thread nD τ).loc main_arg6) := HostTail.first_keep_main_arg6 (W0 m ρ c)

/-! ## At the first region's exit -/

/-- The first region's output array is the whole product of the features with the first weight matrix. -/
theorem W2_v4 : W2 m ρ c (Proc.devRef .tc main_v4)
    = Cert.ReferenceIdeal.Read.val_main_v4 (F := Ideal) (m ((c : Thread nD τ).loc main_arg0)) (m ((c : Thread nD τ).loc main_arg3)) := by
  refine (W2_arr m ρ c 2).trans ((ProductValue.final0 (V1 m ρ) c).trans ?_)
  show Cert.ReferenceIdeal.Read.val_main_v4 (F := Ideal) (W1 m ρ c (Proc.devRef .tc main_arg0)) (W1 m ρ c (Proc.devRef .tc main_arg3)) = _
  rw [W1_arg0, W1_arg3]

theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_arg2 : W2 m ρ c (Proc.devRef .tc main_arg2) = m ((c : Thread nD τ).loc main_arg2) := (W2_of_ne m ρ c main_arg2 (by decide)).trans (W1_arg2 m ρ c)
theorem W2_arg4 : W2 m ρ c (Proc.devRef .tc main_arg4) = m ((c : Thread nD τ).loc main_arg4) := (W2_of_ne m ρ c main_arg4 (by decide)).trans (W1_arg4 m ρ c)
theorem W2_arg5 : W2 m ρ c (Proc.devRef .tc main_arg5) = m ((c : Thread nD τ).loc main_arg5) := (W2_of_ne m ρ c main_arg5 (by decide)).trans (W1_arg5 m ρ c)
theorem W2_arg6 : W2 m ρ c (Proc.devRef .tc main_arg6) = m ((c : Thread nD τ).loc main_arg6) := (W2_of_ne m ρ c main_arg6 (by decide)).trans (W1_arg6 m ρ c)

/-! ## At the second region's entry -/

/-- The first hidden activation: the first layer's tail of the first product. -/
theorem W6_v49 : W6 m ρ c (Proc.devRef .tc main_v49)
    = Cert.Layers.tail1 (Cert.ReferenceIdeal.Read.val_main_v4 (F := Ideal) (m ((c : Thread nD τ).loc main_arg0)) (m ((c : Thread nD τ).loc main_arg3)))
        (Cert.ReferenceIdeal.Read.val_main_v1 (F := Ideal) (m ((c : Thread nD τ).loc main_arg1)))
        (Cert.ReferenceIdeal.Read.val_main_v3 (F := Ideal) (m ((c : Thread nD τ).loc main_arg1)))
        (m ((c : Thread nD τ).loc main_arg2)) (m ((c : Thread nD τ).loc main_arg4)) := by
  refine (HostTail.mid_tail (W2 m ρ c)).trans ?_
  rw [W2_v4, W2_v1, W2_v3, W2_arg2, W2_arg4]

theorem W6_v1 : W6 m ρ c (Proc.devRef .tc main_v1) = Cert.ReferenceIdeal.Read.val_main_v1 (F := Ideal) (m ((c : Thread nD τ).loc main_arg1)) :=
  (HostTail.mid_keep_main_v1 (W2 m ρ c)).trans (W2_v1 m ρ c)
theorem W6_v3 : W6 m ρ c (Proc.devRef .tc main_v3) = Cert.ReferenceIdeal.Read.val_main_v3 (F := Ideal) (m ((c : Thread nD τ).loc main_arg1)) :=
  (HostTail.mid_keep_main_v3 (W2 m ρ c)).trans (W2_v3 m ρ c)
theorem W6_arg2 : W6 m ρ c (Proc.devRef .tc main_arg2) = m ((c : Thread nD τ).loc main_arg2) := (HostTail.mid_keep_main_arg2 (W2 m ρ c)).trans (W2_arg2 m ρ c)
theorem W6_arg5 : W6 m ρ c (Proc.devRef .tc main_arg5) = m ((c : Thread nD τ).loc main_arg5) := (HostTail.mid_keep_main_arg5 (W2 m ρ c)).trans (W2_arg5 m ρ c)
theorem W6_arg6 : W6 m ρ c (Proc.devRef .tc main_arg6) = m ((c : Thread nD τ).loc main_arg6) := (HostTail.mid_keep_main_arg6 (W2 m ρ c)).trans (W2_arg6 m ρ c)

/-! ## At the second region's exit -/

/-- The second region's output array is the whole product of the first hidden activation with the second weight matrix. -/
theorem W7_v50 : W7 m ρ c (Proc.devRef .tc main_v50)
    = Host.dotGeneral (F := Ideal) (φ₁ := .f32) (φ₂ := .f32) Cert.ReferenceIdeal.dot_S65536x128_S128x128_S65536x128_1_0_0_1_n_n none
        (Cert.Layers.tail1 (Cert.ReferenceIdeal.Read.val_main_v4 (F := Ideal) (m ((c : Thread nD τ).loc main_arg0)) (m ((c : Thread nD τ).loc main_arg3)))
          (Cert.ReferenceIdeal.Read.val_main_v1 (F := Ideal) (m ((c : Thread nD τ).loc main_arg1)))
          (Cert.ReferenceIdeal.Read.val_main_v3 (F := Ideal) (m ((c : Thread nD τ).loc main_arg1)))
          (m ((c : Thread nD τ).loc main_arg2)) (m ((c : Thread nD τ).loc main_arg4)))
        (m ((c : Thread nD τ).loc main_arg5)) := by
  refine (W7_arr m ρ c 2).trans ((ProductValue.final1 (V6 m ρ) c).trans ?_)
  show Host.dotGeneral (F := Ideal) (φ₁ := .f32) (φ₂ := .f32) Cert.ReferenceIdeal.dot_S65536x128_S128x128_S65536x128_1_0_0_1_n_n none
    (W6 m ρ c (Proc.devRef .tc main_v49)) (W6 m ρ c (Proc.devRef .tc main_arg5)) = _
  rw [W6_v49, W6_arg5]

theorem W7_v1 : W7 m ρ c (Proc.devRef .tc main_v1) = Cert.ReferenceIdeal.Read.val_main_v1 (F := Ideal) (m ((c : Thread nD τ).loc main_arg1)) :=
  (W7_of_ne m ρ c main_v1 (by decide)).trans (W6_v1 m ρ c)
theorem W7_v3 : W7 m ρ c (Proc.devRef .tc main_v3) = Cert.ReferenceIdeal.Read.val_main_v3 (F := Ideal) (m ((c : Thread nD τ).loc main_arg1)) :=
  (W7_of_ne m ρ c main_v3 (by decide)).trans (W6_v3 m ρ c)
theorem W7_arg2 : W7 m ρ c (Proc.devRef .tc main_arg2) = m ((c : Thread nD τ).loc main_arg2) := (W7_of_ne m ρ c main_arg2 (by decide)).trans (W6_arg2 m ρ c)
theorem W7_arg6 : W7 m ρ c (Proc.devRef .tc main_arg6) = m ((c : Thread nD τ).loc main_arg6) := (W7_of_ne m ρ c main_arg6 (by decide)).trans (W6_arg6 m ρ c)

/-! ## The result -/

/-- The result array at the last boundary is the network function of the launch memory's arguments. -/
theorem W10_v94 : W10 m ρ c (Proc.devRef .tc main_v94)
    = Cert.Layers.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (HostTail.last_tail (W7 m ρ c)).trans ?_
  rw [W7_v50, W7_v1, W7_v3, W7_arg2, W7_arg6]
  rfl

end Cert.KernelIdeal.KernelValue

end
-- ==== Proof.lean ====
/-
  A two-layer graph convolution: a tiled Pallas matrix product against `x @ W`, equal on the extended reals.

  Both programs compute, per layer, `h = x · W`, and then from `h`, the edge list, the edge weights and the bias the
  same chain of host operations (self-loops appended, weighted in-degree by a scatter-add, `deg^(-1/2)` where positive,
  a coefficient per edge, the gather `h[src]`, a scatter-add per destination, the bias; after the first layer the
  rectifier). They differ only in how `h` is computed. The reference applies the host's `dot_general` to the whole
  operands. The kernel program runs a pipelined region over sixteen grid points, each of which loads 4096 rows of the
  left operand and the whole right operand, rounds both to bf16, multiplies them into a zero accumulator and writes the
  4096 × 128 block of products back.

  On the extended reals rounding to bf16 is the identity and both products are, entry by entry, the sum over the
  contraction index of a row entry times a column entry; the sixteen blocks tile the output, block `t` reading rows
  `4096·t …` of the left operand, so each region leaves the whole product in its output array
  (`Cert.KernelIdeal.ProductValue`). The host operations around the regions are the reference's own, so they are carried
  as one function of the product per layer (`Cert.Layers`), never opened, and the result of either program is
  `Cert.Layers.network` of the seven arguments. No arithmetic law is needed beyond reading both products as the same
  sum, so the precondition (finite inputs) is not used.

  The idealization rewrote nothing, so `preserves` is `True`. The two kernel programs' frames are the generated ones;
  the reference's frame is its generated run with the result dropped.
-/
import proofs.«147385_j67362267070872_1_alg».proof.Defs
import proofs.«147385_j67362267070872_1_alg».proof.Proof.Gen.Kernel
import proofs.«147385_j67362267070872_1_alg».proof.Proof.Gen.Kernel.Skeleton
import proofs.«147385_j67362267070872_1_alg».proof.Proof.Gen.Kernel.Launch
import proofs.«147385_j67362267070872_1_alg».proof.Proof.Gen.Kernel.Points
import proofs.«147385_j67362267070872_1_alg».proof.Proof.Gen.Kernel.Frame
import proofs.«147385_j67362267070872_1_alg».proof.Proof.Gen.KernelIdeal
import proofs.«147385_j67362267070872_1_alg».proof.Proof.Gen.KernelIdeal.Skeleton
import proofs.«147385_j67362267070872_1_alg».proof.Proof.Gen.KernelIdeal.Launch
import proofs.«147385_j67362267070872_1_alg».proof.Proof.Gen.KernelIdeal.Points
import proofs.«147385_j67362267070872_1_alg».proof.Proof.Gen.KernelIdeal.Frame
import proofs.«147385_j67362267070872_1_alg».proof.Proof.Gen.ReferenceIdeal
import proofs.«147385_j67362267070872_1_alg».proof.Proof.Gen.Pre_finite_inputs
import proofs.«147385_j67362267070872_1_alg».proof.Proof.Gen.ReferenceIdeal.Run
import proofs.«147385_j67362267070872_1_alg».proof.Proof.Gen.ReferenceIdeal.Read
import proofs.«147385_j67362267070872_1_alg».proof.Proof.RunValue
import proofs.«147385_j67362267070872_1_alg».proof.Proof.LayerTail
import proofs.«147385_j67362267070872_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the network function of their (agreeing) arguments in the result array:
    the kernel program by its run read back through the two regions, the reference by its generated run. -/
theorem algebraic : Cert.algebraic_KernelIdeal_ReferenceIdeal := by
  intro m ρ m' ρ' _ hagree
  refine ⟨fun c => Cert.Layers.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.W10_v94 m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v94_eq, Cert.Layers.val_main_v94_eq_network, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
